-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S256x1024 : Shape := ⟨2, ![256, 1024]⟩
abbrev S256 : Shape := ⟨1, ![256]⟩
abbrev S800000 : Shape := ⟨1, ![800000]⟩
abbrev S50000 : Shape := ⟨1, ![50000]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S800000 : S_.BroadcastsInDim S800000 (![] : Fin 0 → Fin S800000.rank)
  reducesTo_S800000_S_d0 : S800000.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg6 : FVec F S50000 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S50000 .f32 := Host.absf main_arg6
  let main_cst_6 : FVec F S_ .f32 := constant S_ .f32 0x7F800000#32
  let main_v20 : FVec F S50000 .f32 := broadcastInDim S50000 ![] bcast_S_S50000 main_cst_6
  let main_v21 : IVec S50000 1 := cmpf .olt main_v19 main_v20
  let main_c_7 : IVec S_ 1 := constantI S_ 1 1#1
  let main_v22 : IVec S_ 1 := (fun x v => Host.reduce IntOp.andi x v reducesTo_S50000_S_d0 h_S_) main_v21 main_c_7
  let main_v23 : IVec S_ 1 := andi main_v18 main_v22
  main_v23

def fn {F : FTy → Type} [FloatOps F] (main_arg0 : FVec F S50000x1024 .f32) (main_arg1 : FVec F S256x1024 .f32) (main_arg2 : FVec F S256 .f32) (main_arg3 : IVec S800000 32) (main_arg4 : IVec S800000 32) (main_arg5 : FVec F S800000 .f32) (main_arg6 : FVec F S50000 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg6 main_v13 main_v16
-- ==== Kernel.lean ====
abbrev S50000x1024 : Shape := ⟨2, ![50000, 1024]⟩
abbrev S256x1024 : Shape := ⟨2, ![256, 1024]⟩
abbrev S256 : Shape := ⟨1, ![256]⟩
abbrev S800000 : Shape := ⟨1, ![800000]⟩
abbrev S50000 : Shape := ⟨1, ![50000]⟩
abbrev S1x256 : Shape := ⟨2, ![1, 256]⟩
abbrev S50000x1 : Shape := ⟨2, ![50000, 1]⟩
abbrev S50000x256 : Shape := ⟨2, ![50000, 256]⟩
abbrev S2000x1024 : Shape := ⟨2, ![2000, 1024]⟩
abbrev S2000x1 : Shape := ⟨2, ![2000, 1]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩

abbrev nBuf : Space → Nat
  | .hbm => 28
  | .vmem => 10
  | .smem => 0
  | _ => 0

abbrev bufTy : (tb : Table) → Fin (tcTables nBuf tb) → BufTy
  | .hbm, ⟨0, _⟩ => ⟨S50000x1024, .f32⟩
  | .hbm, ⟨1, _⟩ => ⟨S256x1024, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S50000, .f32⟩
  | .hbm, ⟨7, _⟩ => ⟨S1x256, .f32⟩
  | .hbm, ⟨8, _⟩ => ⟨S50000x1, .f32⟩
  | .hbm, ⟨9, _⟩ => ⟨S50000x256, .f32⟩
  | .hbm, ⟨10, _⟩ => ⟨S50000x256, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S800000x1, .f32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S50000x256, .f32⟩
  | .local _ .vmem, ⟨0, _⟩ => ⟨S2000x1024, .f32⟩
  | .local _ .vmem, ⟨1, _⟩ => ⟨S2000x1024, .f32⟩
  | .local _ .vmem, ⟨2, _⟩ => ⟨S256x1024, .f32⟩
  | .local _ .vmem, ⟨3, _⟩ => ⟨S1x256, .f32⟩
  | .local _ .vmem, ⟨4, _⟩ => ⟨S2000x1, .f32⟩
  | .local _ .vmem, ⟨5, _⟩ => ⟨S2000x1, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S50000_S50000x1 : S50000.ShapeCasts S50000x1
  inb_S2000x1024_S2000x1024_0_0 : ∀ a, (![0, 0] : Fin 2 → Nat) a + S2000x1024.size a ≤ S2000x1024.size a
  h_S2000x1024 : 0 < S2000x1024.numel
  inb_S256x1024_S256x1024_0_0 : ∀ a, (![0, 0] : Fin 2 → Nat) a + S256x1024.size a ≤ S256x1024.size a
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  dot_S2000x1024_S256x1024_S2000x256_1_1_0_0_n_n_wf : DotDims.WF S2000x1024 S256x1024 S2000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)

variable [Facts₀]

def dot_S2000x1024_S256x1024_S2000x256_1_1_0_0_n_n : DotDims S2000x1024 S256x1024 S2000x256 where
  lhsContracting := [1]
  rhsContracting := [1]
  lhsNonContracting := [0]
  rhsNonContracting := [0]
  lhsBatch := []
  rhsBatch := []
  wf := dot_S2000x1024_S256x1024_S2000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x1024 : Shape := ⟨2, ![50000, 1024]⟩
abbrev S256x1024 : Shape := ⟨2, ![256, 1024]⟩
abbrev S256 : Shape := ⟨1, ![256]⟩
abbrev S800000 : Shape := ⟨1, ![800000]⟩
abbrev S50000 : Shape := ⟨1, ![50000]⟩
abbrev S50000x256 : Shape := ⟨2, ![50000, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩

abbrev nBuf : Space → Nat
  | .hbm => 31
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S256x1024, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S50000, .f32⟩
  | .hbm, ⟨7, _⟩ => ⟨S50000x256, .f32⟩
  | .hbm, ⟨8, _⟩ => ⟨S1x256, .f32⟩
  | .hbm, ⟨9, _⟩ => ⟨S50000x256, .f32⟩
  | .hbm, ⟨10, _⟩ => ⟨S50000x256, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S800000x1, .f32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S50000x1, .f32⟩
  | .hbm, ⟨28, _⟩ => ⟨S50000x256, .f32⟩
  | .hbm, ⟨29, _⟩ => ⟨S50000x256, .f32⟩
  | .hbm, ⟨30, _⟩ => ⟨S50000x256, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  dot_S50000x1024_S256x1024_S50000x256_1_1_0_0_n_n_wf : DotDims.WF S50000x1024 S256x1024 S50000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x1024_S256x1024_S50000x256_1_1_0_0_n_n : DotDims S50000x1024 S256x1024 S50000x256 where
  lhsContracting := [1]
  rhsContracting := [1]
  lhsNonContracting := [0]
  rhsNonContracting := [0]
  lhsBatch := []
  rhsBatch := []
  wf := dot_S50000x1024_S256x1024_S50000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«116810_j52871047413953_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«116810_j52871047413953_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibTransposed.lean ====
/-
  General lemmas: a weight matrix stored with one row per OUTPUT feature, `[N, K]`, so that a dense layer reads
  `X · Wᵀ + b`. Such a matrix read as the `[K, N]` array `tr W` (entry `(k, q)` is `W (q, k)`) turns the product
  that contracts BOTH operands along their last axis into the plain product with `tr W`, and the host's transpose
  by `[1, 0]` is the same reading. With these the layer is the plain `affine` layer of `tr W`, whose entries depend
  on one row of `X` only. None mentions a program.
-/
import proofs.«116810_j52871047413953_2_alg».proof.Proof.LibRowBlocks

noncomputable section

namespace Cert.TransposedLib

open Idealize.ShloMosaic Idealize.ShloMosaic.ValueIdx Cert.LayoutLib Cert.DenseLib Cert.RowBlocks

/-- An `[N, K]` array read as `[K, N]`: entry `(k, q)` is entry `(q, k)` of the array. -/
def tr {N K : ℕ} {α : Type} (W : (⟨2, ![N, K]⟩ : Shape).Idx → α) : (⟨2, ![K, N]⟩ : Shape).Idx → α :=
  fun i => W (ix2 (n0 := N) (i 1) (n1 := K) (i 0))

theorem tr_apply {N K : ℕ} {α : Type} (W : (⟨2, ![N, K]⟩ : Shape).Idx → α) (k : Fin K) (q : Fin N) :
    tr W (ix2 k q) = W (ix2 q k) := rfl

/-- The `[M, K] × [N, K]` product contracting the LAST axis of both operands: its sum over the contraction index, at
    output `(p, q)`, is the sum over `k : Fin K` of the left operand at `(p, k)` times the right operand at `(q, k)`. -/
theorem dot_transposedRhs_sum {M K N : ℕ} (D : DotDims ⟨2, ![M, K]⟩ ⟨2, ![N, K]⟩ ⟨2, ![M, N]⟩)
    (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- A product contracting both operands along their last axis, accumulated into the zero splat, is the plain product
    with the right operand read transposed. -/
theorem matmul_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    matmul D none L R (constant ⟨2, ![M, N]⟩ .f32 0x00000000#32) = mm L (tr R) := by
  funext i
  obtain ⟨p, q, rfl⟩ : ∃ (p : Fin M) (q : Fin N), i = ix2 p q := ⟨i 0, i 1, eq_ix2 i⟩
  exact (Ideal.matmul_constant_zero_apply D none L R (ix2 p q)).trans (dot_transposedRhs_sum D hD L R p q)

/-- The host's transpose of an `[N, K]` array by `[1, 0]` is the same reading. -/
theorem transpose_eq_tr {N K : ℕ} {α : Type} (W : (⟨2, ![N, K]⟩ : Shape).Idx → α)
    (h : (⟨2, ![N, K]⟩ : Shape).Transposes [1, 0] ⟨2, ![K, N]⟩) :
    transpose ⟨2, ![K, N]⟩ [1, 0] W h = tr W := by
  funext i
  obtain ⟨k, q, rfl⟩ : ∃ (k : Fin K) (q : Fin N), i = ix2 k q := ⟨i 0, i 1, eq_ix2 i⟩
  exact transpose_apply [1, 0] W h (ix2 k q) (ix2 q k) (fun b => match b with
    | ⟨0, _⟩ => rfl
    | ⟨1, _⟩ => rfl)

/-- An entry of `P · W + b` is determined by its row of `P`: if row `j 0` of `P'` is row `i 0` of `P`, the weights
    and the bias agree and the columns `j 1`, `i 1` are the same, the two entries are equal. -/
theorem affine_eq_of_row {M M' K N : ℕ} (P' : (⟨2, ![M', K]⟩ : Shape).Idx → EReal) (W' : (⟨2, ![K, N]⟩ : Shape).Idx → EReal)
    (b' : Fin N → EReal) (P : (⟨2, ![M, K]⟩ : Shape).Idx → EReal) (W : (⟨2, ![K, N]⟩ : Shape).Idx → EReal) (b : Fin N → EReal)
    (j : (⟨2, ![M', N]⟩ : Shape).Idx) (i : (⟨2, ![M, N]⟩ : Shape).Idx)
    (hb : b' = b) (hw : W' = W) (hq : (j 1).val = (i 1).val)
    (hx : ∀ k : Fin K, P' (ix2 (n0 := M') (j 0) k) = P (ix2 (n0 := M) (i 0) k)) :
    affine P' W' b' j = affine P W b i :=
  biased_eq_of_entry (mm P' W') b' (mm P W) b j i hb hq (mm_eq_of_row P' W' P W j i hw hq hx)

/-- The vector unit's spelling of the layer on a block of rows: both operands narrowed (the identity on the extended
    reals), the product contracting both last axes accumulated into zero, the one-row bias broadcast down the rows and
    added — the plain layer with the weights read transposed. -/
theorem unit_affine_transposed {M K N : ℕ} (D : DotDims ⟨2, ![M, K]⟩ ⟨2, ![N, K]⟩ ⟨2, ![M, N]⟩)
    (hD : D = DotDims.transposedRhs M K N)
    (X : FVec Ideal ⟨2, ![M, K]⟩ .f32) (W : FVec Ideal ⟨2, ![N, K]⟩ .f32) (v : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩)
    (hx : FTy.bf16.bits < FTy.f32.bits) (hw : FTy.bf16.bits < FTy.f32.bits) :
    addf (matmul D none (truncf .bf16 (shapeCast ⟨2, ![M, K]⟩ X h0) hx) (truncf .bf16 W hw)
        (constant ⟨2, ![M, N]⟩ .f32 0x00000000#32))
      (broadcastTo ⟨2, ![M, N]⟩ (shapeCast ⟨2, ![1, N]⟩ v h2) hb)
      = affine X (tr W) (fun c => v (ix2 (0 : Fin 1) c)) := by
  rw [shapeCast_self, shapeCast_self, matmul_transposedRhs_eq_mm D hD, broadcastTo_eq_rows]
  rfl

end Cert.TransposedLib

end
-- ==== Proof.LibSelfLoop.lean ====
/-
  General lemmas: a dense layer whose weights are stored one row per output feature, `X · Wᵀ + b`, and the array
  obtained from a rank-two array by multiplying every row by that row's own weight (the self-loop term of a graph
  convolution), each as ONE function of its operands at any number of rows — in the spelling a vector unit gives them
  (a product contracting both last axes into a zero splat, a one-row bias broadcast down the rows; a column of
  weights broadcast along the rows) and in the spelling a host program gives them (a general dot contracting both
  last axes, a vector broadcast in two steps). Over the extended reals multiplication commutes, so on which side the
  row weight stands does not matter. None mentions a program.
-/
import proofs.«116810_j52871047413953_2_alg».proof.Proof.LibTransposed

noncomputable section

namespace Cert.SelfLoopLib

open Idealize.ShloMosaic Idealize.ShloMosaic.ValueIdx Cert.LayoutLib Cert.DenseLib Cert.RowBlocks Cert.TransposedLib

/-- `X · Wᵀ + b`: the weights `W` stored `[N, K]`, the bias a vector `[N]` laid along every row. -/
def proj {M K N : ℕ} (X : (⟨2, ![M, K]⟩ : Shape).Idx → EReal) (W : (⟨2, ![N, K]⟩ : Shape).Idx → EReal)
    (b : (⟨1, ![N]⟩ : Shape).Idx → EReal) : (⟨2, ![M, N]⟩ : Shape).Idx → EReal :=
  affine X (tr W) (fun c => b (ix1 c))

/-- Every row `p` of `H` multiplied by the weight `s p` of that row. -/
def rowScaled {M N : ℕ} (H : (⟨2, ![M, N]⟩ : Shape).Idx → EReal) (s : (⟨1, ![M]⟩ : Shape).Idx → EReal) :
    (⟨2, ![M, N]⟩ : Shape).Idx → EReal :=
  fun i => H i * s (ix1 (i 0))

/-! ## The host's spellings -/

/-- The host's general dot contracting BOTH operands along their last axis is the plain product with the right
    operand read transposed. -/
theorem dotGeneral_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    Host.dotGeneral D none L R = mm L (tr R) := by
  funext i
  obtain ⟨p, q, rfl⟩ : ∃ (p : Fin M) (q : Fin N), i = ix2 p q := ⟨i 0, i 1, eq_ix2 i⟩
  simp only [Host.dotGeneral]
  rw [Ideal.dotGeneral_apply]
  exact dot_transposedRhs_sum D hD L R p q

/-- The host's layer: the general dot plus the bias vector broadcast to one row and then down the rows. -/
theorem host_proj {M K N : ℕ} (D : DotDims ⟨2, ![M, K]⟩ ⟨2, ![N, K]⟩ ⟨2, ![M, N]⟩) (hD : D = DotDims.transposedRhs M K N)
    (X : FVec Ideal ⟨2, ![M, K]⟩ .f32) (W : FVec Ideal ⟨2, ![N, K]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral D none X W) (broadcastInDim ⟨2, ![M, N]⟩ ![0, 1] h2 (broadcastInDim ⟨2, ![1, N]⟩ ![1] h1 b))
      = proj X W b := by
  rw [dotGeneral_transposedRhs_eq_mm D hD, broadcastInDim_eq_rows]
  rfl

/-- The host's self-loop term: the row weights broadcast to a column and then along the rows, times the array. -/
theorem host_rowScaled {M N : ℕ} (H : FVec Ideal ⟨2, ![M, N]⟩ .f32) (s : FVec Ideal ⟨1, ![M]⟩ .f32)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) :
    mulf (broadcastInDim ⟨2, ![M, N]⟩ ![0, 1] h2 (broadcastInDim ⟨2, ![M, 1]⟩ ![0] h1 s)) H = rowScaled H s := by
  funext i
  obtain ⟨p, q, rfl⟩ : ∃ (p : Fin M) (q : Fin N), i = ix2 p q := ⟨i 0, i 1, eq_ix2 i⟩
  show broadcastInDim ⟨2, ![M, N]⟩ ![0, 1] h2 (broadcastInDim ⟨2, ![M, 1]⟩ ![0] h1 s) (ix2 p q) * H (ix2 p q) = H (ix2 p q) * s (ix1 p)
  rw [broadcastInDim_col_apply, broadcastInDim_vecCol_apply, mul_comm]

/-! ## The vector unit's spellings, on a block of rows -/

/-- The layer on a block: the product contracting both last axes accumulated into zero, the one-row bias broadcast
    down the rows and added — the plain layer with the weights read transposed. -/
theorem unit_proj {M K N : ℕ} (D : DotDims ⟨2, ![M, K]⟩ ⟨2, ![N, K]⟩ ⟨2, ![M, N]⟩) (hD : D = DotDims.transposedRhs M K N)
    (X : FVec Ideal ⟨2, ![M, K]⟩ .f32) (W : FVec Ideal ⟨2, ![N, K]⟩ .f32) (v : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf (matmul D none X W (constant ⟨2, ![M, N]⟩ .f32 0x00000000#32)) (broadcastTo ⟨2, ![M, N]⟩ (shapeCast ⟨2, ![1, N]⟩ v h2) hb)
      = affine X (tr W) (fun c => v (ix2 (0 : Fin 1) c)) := by
  rw [shapeCast_self, matmul_transposedRhs_eq_mm D hD, broadcastTo_eq_rows]
  rfl

/-- The self-loop term on a block: the array times a column of row weights broadcast along the rows. -/
theorem unit_rowScaled {M N : ℕ} (P : FVec Ideal ⟨2, ![M, N]⟩ .f32) (v : FVec Ideal ⟨2, ![M, 1]⟩ .f32)
    (h : (⟨2, ![M, 1]⟩ : Shape).ShapeCasts ⟨2, ![M, 1]⟩) (hb : (⟨2, ![M, 1]⟩ : Shape).Broadcasts ⟨2, ![M, N]⟩) :
    mulf P (broadcastTo ⟨2, ![M, N]⟩ (shapeCast ⟨2, ![M, 1]⟩ v h) hb)
      = fun i => P i * v (ix2 (n0 := M) (i 0) (0 : Fin 1)) := by
  funext i
  obtain ⟨p, q, rfl⟩ : ∃ (p : Fin M) (q : Fin N), i = ix2 p q := ⟨i 0, i 1, eq_ix2 i⟩
  rw [shapeCast_self]
  show P (ix2 p q) * broadcastTo ⟨2, ![M, N]⟩ v hb (ix2 p q) = P (ix2 p q) * v (ix2 p (0 : Fin 1))
  rw [broadcastTo_col_apply]

/-! ## Row-locality: a block of rows of the result is the same function of that block of rows -/

/-- An entry of `X · Wᵀ + b` is determined by its row of `X`: if row `j 0` of the block `X'` is row `i 0` of `X`,
    the block's weights are `W`, its one-row bias reads `b`, and the columns agree, the block's plain layer with the
    transposed weights has at `j` the entry of `proj X W b` at `i`. -/
theorem proj_of_block {M M' K N : ℕ} (X' : (⟨2, ![M', K]⟩ : Shape).Idx → EReal) (W' : (⟨2, ![N, K]⟩ : Shape).Idx → EReal)
    (v : (⟨2, ![1, N]⟩ : Shape).Idx → EReal)
    (X : (⟨2, ![M, K]⟩ : Shape).Idx → EReal) (W : (⟨2, ![N, K]⟩ : Shape).Idx → EReal) (b : (⟨1, ![N]⟩ : Shape).Idx → EReal)
    (j : (⟨2, ![M', N]⟩ : Shape).Idx) (i : (⟨2, ![M, N]⟩ : Shape).Idx)
    (hw : W' = W) (hb : ∀ c : Fin N, v (ix2 (0 : Fin 1) c) = b (ix1 c)) (hq : (j 1).val = (i 1).val)
    (hx : ∀ k : Fin K, X' (ix2 (n0 := M') (j 0) k) = X (ix2 (n0 := M) (i 0) k)) :
    affine X' (tr W') (fun c => v (ix2 (0 : Fin 1) c)) j = proj X W b i :=
  affine_eq_of_row X' (tr W') _ X (tr W) _ j i (funext hb) (by rw [hw]) hq hx

end Cert.SelfLoopLib

end
-- ==== Proof.RegionArrays.lean ====
/-
  What the two arrays written by the projection region hold when it has run, on the extended reals. The region walks
  the 50000 rows of the node features `X` in 25 blocks of 2000 rows. At block `t` it forms `X_t · Wᵀ + b` (the
  weights `W` stored one row per output feature, the bias a single row laid along every row of the block) and writes
  it to rows `2000 t … 2000 t + 1999` of the first array; it multiplies every row of that block by the row's own
  self-loop weight and writes the result to the same rows of the second array. A row of `X · Wᵀ + b` depends on the same
  row of `X` only, so each block written is the block of ONE whole-array function: the first array ends at
  `hidden = X · Wᵀ + b`, the second at `selfTerm`, row `p` of `hidden` times `s p`. The 25 blocks tile both arrays.
-/
import proofs.«116810_j52871047413953_2_alg».proof.Proof.Gen.KernelIdeal.Frame
import proofs.«116810_j52871047413953_2_alg».proof.Proof.LibSelfLoop
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.LayoutLib Cert.DenseLib Cert.RowBlocks Cert.TransposedLib Cert.SelfLoopLib

variable (m : (ℓ : Loc nD τ sig) → Buf (Elt Ideal) ℓ)

theorem hz : (![0, 0] : Fin 2 → Nat) = fun _ => 0 := funext fun a => by fin_cases a <;> rfl

/-! ## The body's two stored values as functions of the blocks it loads -/

/-- The first stored value: the block's layer with the weights read transposed and the one-row bias. -/
theorem pay1_eq (x0 : Vec Ideal S2000x1024 .f32) (x1 : Vec Ideal S256x1024 .f32) (x2 : Vec Ideal S1x256 .f32) :
    k0_pay1 x0 x1 x2 = affine x0 (tr x1) (fun c => x2 (ix2 (0 : Fin 1) c)) :=
  unit_proj dot_S2000x1024_S256x1024_S2000x256_1_1_0_0_n_n rfl x0 x1 x2 shapeCasts_S1x256_S1x256 broadcasts_S1x256_S2000x256

/-- The second stored value: every row of the first times that row's entry of the loaded column of weights. -/
theorem pay2_eq (x0 : Vec Ideal S2000x1024 .f32) (x1 : Vec Ideal S256x1024 .f32) (x2 : Vec Ideal S1x256 .f32) (x3 : Vec Ideal S2000x1 .f32) :
    k0_pay2 x0 x1 x2 x3 = fun i => k0_pay1 x0 x1 x2 i * x3 (ix2 (n0 := 2000) (i 0) (0 : Fin 1)) :=
  unit_rowScaled (k0_pay1 x0 x1 x2) x3 shapeCasts_S2000x1_S2000x1 broadcasts_S2000x1_S2000x256

/-! ## The arrays as the region finds them -/

theorem V_bias (c : Dev nD) : (V m c main_v0 : S1x256.Idx → EReal) = shapeCast S1x256 (m ((c : Thread nD τ).loc main_arg2)) shapeCasts_S256_S1x256 := by
  show StableHlo.after hostOps0 (fun b => m (c, b)) (Proc.devRef .tc main_v0) = _
  after_results
  rfl

/-- The column of self-loop weights the region is handed is the weight vector recast `[50000] → [50000, 1]`. -/
theorem V_rowWeights (c : Dev nD) : (V m c main_v1 : S50000x1.Idx → EReal) = shapeCast S50000x1 (m ((c : Thread nD τ).loc main_arg6)) shapeCasts_S50000_S50000x1 := by
  show StableHlo.after hostOps0 (fun b => m (c, b)) (Proc.devRef .tc main_v1) = _
  after_results
  rfl

/-- The printed index maps, decided over the grid: the features, the column of weights and both outputs move one
    block of rows per point; the weights and the bias row stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks at a point, read off the argument arrays -/

/-- The feature block at point `t` is rows `2000 t … 2000 t + 1999` of `X`. -/
theorem iblk0_apply (c : Dev nD) (t : Fin cfg0.N) (y : S2000x1024.Idx) (k : S50000x1024.Idx)
    (h0 : (k 0).val = 2000 * t.val + (y 0).val) (h1 : (k 1).val = (y 1).val) :
    (iblk m c 0 t : Vec Ideal S2000x1024 .f32) y = (m ((c : Thread nD τ).loc main_arg0) : S50000x1024.Idx → EReal) k := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 2000 + 1 * (y 0).val = (k 0).val; rw [e0, h0]; omega
  | ⟨1, _⟩ => show win0_0.index t 1 * 1024 + 1 * (y 1).val = (k 1).val; rw [e1, h1]; omega

/-- The weight block at every point is the whole weight matrix. -/
theorem iblk1_eq (c : Dev nD) (t : Fin cfg0.N) :
    (iblk m c 1 t : Vec Ideal S256x1024 .f32) = (m ((c : Thread nD τ).loc main_arg1) : S256x1024.Idx → EReal) := by
  obtain ⟨-, -, e0, e1, -⟩ := idx_facts t
  funext y
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * (y 0).val = (y 0).val; rw [e0]; omega
  | ⟨1, _⟩ => show win0_1.index t 1 * 1024 + 1 * (y 1).val = (y 1).val; rw [e1]; omega

/-- The bias block at every point is the bias vector as one row. -/
theorem iblk2_apply (c : Dev nD) (t : Fin cfg0.N) (q : Fin 256) :
    (iblk m c 2 t : Vec Ideal S1x256 .f32) (ix2 (0 : Fin 1) q) = (m ((c : Thread nD τ).loc main_arg2) : S256.Idx → EReal) (ix1 q) := by
  obtain ⟨-, -, -, -, e0, e1, -⟩ := idx_facts t
  unfold iblk
  rw [View.read_apply]
  show (V m c main_v0 : S1x256.Idx → EReal) _ = _
  rw [V_bias]
  refine (shapeCast_vecRow_apply _ shapeCasts_S256_S1x256 (0 : Fin 1) q).symm.trans ?_ |>.symm
  congr 1
  funext a
  apply Fin.ext
  match a with
  | ⟨0, _⟩ => show 0 = win0_2.index t 0 * 1 + 1 * 0; rw [e0]
  | ⟨1, _⟩ => show q.val = win0_2.index t 1 * 256 + 1 * q.val; rw [e1]; omega

/-- The block of self-loop weights at point `t` is entries `2000 t … 2000 t + 1999` of the weight vector. -/
theorem iblk3_apply (c : Dev nD) (t : Fin cfg0.N) (p : Fin 2000) (r : Fin 50000) (hr : r.val = 2000 * t.val + p.val) :
    (iblk m c 3 t : Vec Ideal S2000x1 .f32) (ix2 p (0 : Fin 1)) = (m ((c : Thread nD τ).loc main_arg6) : S50000.Idx → EReal) (ix1 r) := by
  obtain ⟨-, -, -, -, -, -, e0, e1, -⟩ := idx_facts t
  unfold iblk
  rw [View.read_apply]
  show (V m c main_v1 : S50000x1.Idx → EReal) _ = _
  rw [V_rowWeights]
  refine Eq.trans ?_ (shapeCast_col_apply _ shapeCasts_S50000_S50000x1 r (0 : Fin 1))
  congr 1
  funext a
  apply Fin.ext
  match a with
  | ⟨0, _⟩ => show win0_3.index t 0 * 2000 + 1 * p.val = r.val; rw [e0, hr]; omega
  | ⟨1, _⟩ => show win0_3.index t 1 * 1 + 1 * 0 = 0; rw [e1]

/-! ## The two whole-array functions -/

/-- `X · Wᵀ + b` of the launch contents of the features, the weights and the bias. -/
def hidden (c : Dev nD) : S50000x256.Idx → EReal :=
  proj (m ((c : Thread nD τ).loc main_arg0) : S50000x1024.Idx → EReal) (m ((c : Thread nD τ).loc main_arg1) : S256x1024.Idx → EReal)
    (m ((c : Thread nD τ).loc main_arg2) : S256.Idx → EReal)

/-- Every row of `hidden` times that row's self-loop weight. -/
def selfTerm (c : Dev nD) : S50000x256.Idx → EReal :=
  rowScaled (hidden m c) (m ((c : Thread nD τ).loc main_arg6) : S50000.Idx → EReal)

/-- An entry of the first stored value is the entry of the whole-array layer at the same column and at the row of
    `X` the block's row is. -/
theorem pay1_entry (x0 : Vec Ideal S2000x1024 .f32) (x1 : Vec Ideal S256x1024 .f32) (x2 : Vec Ideal S1x256 .f32)
    (X : S50000x1024.Idx → EReal) (W : S256x1024.Idx → EReal) (b : S256.Idx → EReal)
    (j : S2000x256.Idx) (i : S50000x256.Idx) (hw : x1 = W) (hb : ∀ q : Fin 256, x2 (ix2 (0 : Fin 1) q) = b (ix1 q))
    (hq : (j 1).val = (i 1).val) (hx : ∀ k : Fin 1024, x0 (ix2 (j 0) k) = X (ix2 (i 0) k)) :
    k0_pay1 x0 x1 x2 j = proj X W b i := by
  rw [pay1_eq]
  exact proj_of_block x0 x1 x2 X W b j i hw hb hq hx

/-- An entry of the second stored value likewise, with the block's column of weights read off the weight vector. -/
theorem pay2_entry (x0 : Vec Ideal S2000x1024 .f32) (x1 : Vec Ideal S256x1024 .f32) (x2 : Vec Ideal S1x256 .f32) (x3 : Vec Ideal S2000x1 .f32)
    (X : S50000x1024.Idx → EReal) (W : S256x1024.Idx → EReal) (b : S256.Idx → EReal) (s : S50000.Idx → EReal)
    (j : S2000x256.Idx) (i : S50000x256.Idx) (hw : x1 = W) (hb : ∀ q : Fin 256, x2 (ix2 (0 : Fin 1) q) = b (ix1 q))
    (hq : (j 1).val = (i 1).val) (hx : ∀ k : Fin 1024, x0 (ix2 (j 0) k) = X (ix2 (i 0) k))
    (hs : x3 (ix2 (j 0) (0 : Fin 1)) = s (ix1 (i 0))) :
    k0_pay2 x0 x1 x2 x3 j = rowScaled (proj X W b) s i := by
  rw [pay2_eq]
  show k0_pay1 x0 x1 x2 j * x3 (ix2 (j 0) (0 : Fin 1)) = proj X W b i * s (ix1 (i 0))
  rw [pay1_entry x0 x1 x2 X W b j i hw hb hq hx, hs]

/-! ## What each point writes back, and the arrays after the run -/

/-- WHAT POINT `t` WRITES BACK to the first array is block `t` of `hidden`. -/
theorem flushed4_eq (c : Dev nD) (t : Fin cfg0.N) :
    (dats m 0 c).flushed 4 t = ((cfg0.win 4).blk t).view.read (Elt Ideal) (hidden m c) := by
  show (cfg0.win 4).cut (grid0.coords t) ((dats m 0 c).after 4 t) = _
  rw [after0_4]
  unfold out0_4
  rw [View.canon_unit_zero hz]
  simp only [View.ld_unit_zero (S := S2000x1024) hz, View.ld_unit_zero (S := S256x1024) hz, View.ld_unit_zero (S := S1x256) hz]
  obtain ⟨-, -, -, -, -, -, -, -, e0, e1, -⟩ := idx_facts t
  funext j
  show k0_pay1 (iblk m c 0 t) (iblk m c 1 t) (iblk m c 2 t) j = hidden m c (((cfg0.win 4).blk t).view.emb j)
  have hj0 : (j 0).val < 2000 := (j 0).isLt
  have hj1 : (j 1).val < 256 := (j 1).isLt
  have r0 : ((((cfg0.win 4).blk t).view.emb j) 0).val = 2000 * t.val + (j 0).val := by
    show win0_4.index t 0 * 2000 + 1 * (j 0).val = _; rw [e0]; omega
  have r1 : ((((cfg0.win 4).blk t).view.emb j) 1).val = (j 1).val := by
    show win0_4.index t 1 * 256 + 1 * (j 1).val = _; rw [e1]; omega
  exact pay1_entry (iblk m c 0 t) (iblk m c 1 t) (iblk m c 2 t) _ _ _ j (((cfg0.win 4).blk t).view.emb j)
    (iblk1_eq m c t) (iblk2_apply m c t) r1.symm
    (fun k => iblk0_apply m c t (ix2 (j 0) k) (ix2 ((((cfg0.win 4).blk t).view.emb j) 0) k) r0 rfl)

/-- WHAT POINT `t` WRITES BACK to the second array is block `t` of `selfTerm`. -/
theorem flushed5_eq (c : Dev nD) (t : Fin cfg0.N) :
    (dats m 0 c).flushed 5 t = ((cfg0.win 5).blk t).view.read (Elt Ideal) (selfTerm m c) := by
  show (cfg0.win 5).cut (grid0.coords t) ((dats m 0 c).after 5 t) = _
  rw [after0_5]
  unfold out0_5
  rw [View.canon_unit_zero hz]
  simp only [View.ld_unit_zero (S := S2000x1024) hz, View.ld_unit_zero (S := S256x1024) hz, View.ld_unit_zero (S := S1x256) hz,
    View.ld_unit_zero (S := S2000x1) hz]
  obtain ⟨-, -, -, -, -, -, -, -, -, -, e0, e1⟩ := idx_facts t
  funext j
  show k0_pay2 (iblk m c 0 t) (iblk m c 1 t) (iblk m c 2 t) (iblk m c 3 t) j = selfTerm m c (((cfg0.win 5).blk t).view.emb j)
  have hj0 : (j 0).val < 2000 := (j 0).isLt
  have hj1 : (j 1).val < 256 := (j 1).isLt
  have r0 : ((((cfg0.win 5).blk t).view.emb j) 0).val = 2000 * t.val + (j 0).val := by
    show win0_5.index t 0 * 2000 + 1 * (j 0).val = _; rw [e0]; omega
  have r1 : ((((cfg0.win 5).blk t).view.emb j) 1).val = (j 1).val := by
    show win0_5.index t 1 * 256 + 1 * (j 1).val = _; rw [e1]; omega
  exact pay2_entry (iblk m c 0 t) (iblk m c 1 t) (iblk m c 2 t) (iblk m c 3 t) _ _ _ _ j (((cfg0.win 5).blk t).view.emb j)
    (iblk1_eq m c t) (iblk2_apply m c t) r1.symm
    (fun k => iblk0_apply m c t (ix2 (j 0) k) (ix2 ((((cfg0.win 5).blk t).view.emb j) 0) k) r0 rfl)
    (iblk3_apply m c t (j 0) ((((cfg0.win 5).blk t).view.emb j) 0) r0)

/-- An index of the first array is in point `t`'s block iff each coordinate is in the block's range on its axis. -/
theorem mem_blk4 (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v2_0).slice (win0_4.rect t)).set ↔ _
  rw [View.set_slice_whole, Rect.mem_set_unit]
  exact Iff.rfl

theorem mem_blk5 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v2_1).slice (win0_5.rect t)).set ↔ _
  rw [View.set_slice_whole, Rect.mem_set_unit]
  exact Iff.rfl

/-- The point whose block holds row `r` is `r / 2000`. -/
def pointOf (i : S50000x256.Idx) : Fin cfg0.N :=
  ⟨(i 0).val / 2000, by have hN : cfg0.N = 25 := N_0; have hi : (i 0).val < 50000 := (i 0).isLt; rw [hN]; omega⟩

/-- The 25 blocks cover the first array, -/
theorem cover4 (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  obtain ⟨-, -, -, -, -, -, -, -, e0, e1, -⟩ := idx_facts (pointOf i)
  refine ⟨pointOf i, flush0_4 _, ?_⟩
  rw [mem_blk4]
  intro a
  match a with
  | ⟨0, _⟩ =>
    show win0_4.index (pointOf i) 0 * 2000 ≤ (i 0).val ∧ (i 0).val < win0_4.index (pointOf i) 0 * 2000 + 2000
    rw [e0]; show (i 0).val / 2000 * 2000 ≤ (i 0).val ∧ (i 0).val < (i 0).val / 2000 * 2000 + 2000; omega
  | ⟨1, _⟩ =>
    show win0_4.index (pointOf i) 1 * 256 ≤ (i 1).val ∧ (i 1).val < win0_4.index (pointOf i) 1 * 256 + 256
    rw [e1]; omega

/-- and the second. -/
theorem cover5 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨-, -, -, -, -, -, -, -, -, -, e0, e1⟩ := idx_facts (pointOf i)
  refine ⟨pointOf i, flush0_5 _, ?_⟩
  rw [mem_blk5]
  intro a
  match a with
  | ⟨0, _⟩ =>
    show win0_5.index (pointOf i) 0 * 2000 ≤ (i 0).val ∧ (i 0).val < win0_5.index (pointOf i) 0 * 2000 + 2000
    rw [e0]; show (i 0).val / 2000 * 2000 ≤ (i 0).val ∧ (i 0).val < (i 0).val / 2000 * 2000 + 2000; omega
  | ⟨1, _⟩ =>
    show win0_5.index (pointOf i) 1 * 256 ≤ (i 1).val ∧ (i 1).val < win0_5.index (pointOf i) 1 * 256 + 256
    rw [e1]; omega

/-- THE FIRST ARRAY after the run is `hidden`. -/
theorem final4 (c : Dev nD) : (dats m 0 c).arrAt 4 cfg0.N = hidden m c :=
  (dats m 0 c).arrAt_eq_of_cover 4 (hidden m c) (fun t _ => flushed4_eq m c t) cover4

/-- THE SECOND ARRAY after the run is `selfTerm`. -/
theorem final5 (c : Dev nD) : (dats m 0 c).arrAt 5 cfg0.N = selfTerm m c :=
  (dats m 0 c).arrAt_eq_of_cover 5 (selfTerm m c) (fun t _ => flushed5_eq m c t) cover5

end Cert.KernelIdeal.Region

end
-- ==== Proof.Aggregation.lean ====
/-
  The edge aggregation both programs end with, as ONE function of the projected node array `H`, the self-loop term,
  the source and target node of every edge and the edge weights: negative source indices are wrapped by the number of
  nodes, row `src e` of `H` is gathered for every edge `e` and multiplied by the edge's weight, the weighted rows are
  added into row `tar e` of an array of zeros, and the self-loop term is added to the sum. The two programs differ only
  in how `H` and the self-loop term are computed, so the aggregation is never opened: equal operands give equal results.
-/
import Idealize.ShloMosaic.PureOps
import Idealize.ShloMosaic.PureOps.Ideal

noncomputable section

namespace Cert.Aggregation

open Idealize.ShloMosaic

/-- The shapes: a scalar, one entry per edge, the edges as a column, one row per edge, one row per node. -/
abbrev Sc : Shape := ⟨0, ![]⟩
abbrev Se : Shape := ⟨1, ![800000]⟩
abbrev Se1 : Shape := ⟨2, ![800000, 1]⟩
abbrev Sey : Shape := ⟨2, ![800000, 256]⟩
abbrev Sny : Shape := ⟨2, ![50000, 256]⟩

/-- `scatterAdd 0 tar (gather H (wrap src) · w) + selfTerm`. -/
def aggregate (gd : GatherDims Sny Se1 Sey) (sd : ScatterDims Sny Se1 Sey)
    (h1 : Sc.BroadcastsInDim Se (![] : Fin 0 → Fin Se.rank)) (h2 : Se.BroadcastsInDim Se1 (![0] : Fin 1 → Fin Se1.rank))
    (h3 : Se1.BroadcastsInDim Sey (![0, 1] : Fin 2 → Fin Sey.rank)) (h4 : Sc.BroadcastsInDim Sny (![] : Fin 0 → Fin Sny.rank))
    (H selfTerm : (⟨Sny, .f32⟩ : BufTy).Contents (Elt Ideal))
    (src tar : (⟨Se, .i32⟩ : BufTy).Contents (Elt Ideal)) (w : (⟨Se, .f32⟩ : BufTy).Contents (Elt Ideal)) :
    (⟨Sny, .f32⟩ : BufTy).Contents (Elt Ideal) :=
  addf
    (Host.scatterAdd sd (broadcastInDim Sny ![] h4 (constant (F := Ideal) Sc .f32 0x00000000#32)) (broadcastInDim Se1 ![0] h2 tar)
      (mulf
        (Host.gather gd H
          (broadcastInDim Se1 ![0] h2
            (select (cmpi .slt src (broadcastInDim Se ![] h1 (constantI Sc 32 0#32)))
              (addi src (broadcastInDim Se ![] h1 (constantI Sc 32 50000#32))) src)))
        (broadcastInDim Sey ![0, 1] h3 (broadcastInDim Se1 ![0] h2 w))))
    selfTerm

end Cert.Aggregation

end
-- ==== Proof.KernelRun.lean ====
/-
  The idealized kernel's run, read: after the region the host lines gather, weight and scatter-add the rows of the
  region's first array and add its second; with those arrays at `hidden` and `selfTerm` the result is the shared
  aggregation of the two.
-/
import proofs.«116810_j52871047413953_2_alg».proof.Proof.RegionArrays
import proofs.«116810_j52871047413953_2_alg».proof.Proof.Aggregation

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.Aggregation

variable (m : (ℓ : Loc nD τ sig) → Buf (Elt Ideal) ℓ) (ρ : Dev nD → PrngReg)

/-- The result: the aggregation of `hidden` with `selfTerm` over the launch contents of the edge arrays. -/
def result (c : Dev nD) : (⟨Sny, .f32⟩ : BufTy).Contents (Elt Ideal) :=
  aggregate gather_S50000x256_S800000x1_S800000x256_1_0_n_n_0_1_1256 scatter_S50000x256_S800000x1_S800000x256_1_0_0_1
    bcast_S_S800000 bcast_S800000_S800000x1_0 bcast_S800000x1_S800000x256_0_1 bcast_S_S50000x256
    (hidden m c) (selfTerm m c) (m ((c : Thread nD τ).loc main_arg3)) (m ((c : Thread nD τ).loc main_arg4)) (m ((c : Thread nD τ).loc main_arg5))

/-- The host lines after the region, from ANY contents `Wv` of the buffers at the region's exit: their last result is
    the aggregation of what `Wv` holds at the region's two arrays and at the edge arrays. -/
theorem tail_of (Wv : Valuation τ sig (Elt Ideal)) :
    StableHlo.after (hostOps1 (F := Ideal)) Wv (Proc.devRef .tc main_v16)
      = aggregate gather_S50000x256_S800000x1_S800000x256_1_0_n_n_0_1_1256 scatter_S50000x256_S800000x1_S800000x256_1_0_0_1
          bcast_S_S800000 bcast_S800000_S800000x1_0 bcast_S800000x1_S800000x256_0_1 bcast_S_S50000x256
          (Wv (Proc.devRef .tc main_v2_0)) (Wv (Proc.devRef .tc main_v2_1))
          (Wv (Proc.devRef .tc main_arg3)) (Wv (Proc.devRef .tc main_arg4)) (Wv (Proc.devRef .tc main_arg5)) := by
  after_results
  rfl

set_option maxHeartbeats 1000000 in
/-- With the region's arrays at `hidden` and `selfTerm` and the edge arrays as launched, that is `result`. -/
theorem result_eq (c : Dev nD) :
    Pipeline.afterTail₀ cfgs (dats m) 0 (V0 m) [hostOps1] c main_v16 = result m c := by
  unfold Pipeline.afterTail₀
  show StableHlo.after (hostOps1 (F := Ideal)) (Pipeline.withArrays (cfgs 0).spec c (V0 m c) fun w => (dats m 0 c).arrAt w (cfgs 0).N) (Proc.devRef .tc main_v16) = result m c
  rw [tail_of]
  have e4 : Pipeline.withArrays (cfgs 0).spec c (V0 m c) (fun w => (dats m 0 c).arrAt w (cfgs 0).N) (Proc.devRef .tc main_v2_0) = hidden m c :=
    (Pipeline.withArrays_arr spec0 launch0.win.arr_inj c (V0 m c) (fun w => (dats m 0 c).arrAt w cfg0.N) 4).trans (final4 m c)
  have e5 : Pipeline.withArrays (cfgs 0).spec c (V0 m c) (fun w => (dats m 0 c).arrAt w (cfgs 0).N) (Proc.devRef .tc main_v2_1) = selfTerm m c :=
    (Pipeline.withArrays_arr spec0 launch0.win.arr_inj c (V0 m c) (fun w => (dats m 0 c).arrAt w cfg0.N) 5).trans (final5 m c)
  have e3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  have e4' : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  have e5' : Pipeline.withArrays (cfgs 0).spec c (V0 m c) (fun w => (dats m 0 c).arrAt w (cfgs 0).N) (Proc.devRef .tc main_arg5) = m ((c : Thread nD τ).loc main_arg5) :=
    (Pipeline.withArrays_of_ne _ c (V0 m c) _ main_arg5 (by exact (by decide : ∀ w, Pipeline.arrRef spec0 w ≠ main_arg5))).trans (V_main_arg5 m c)
  rw [e4, e5, e3, e4', e5']
  rfl

/-- THE RUN, read: every weakly fair execution of the idealized kernel terminates with the result array at `result`
    and the seven argument arrays as launched. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v16 (Pipeline.mem_restRefs_of main_v16 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Region

end
-- ==== Proof.ReferenceValue.lean ====
/-
  The idealized reference's result, read: its general dot contracts both operands along their last axis and its bias
  is broadcast in two steps, which is `X · Wᵀ + b`; its self-loop term multiplies the row weights (broadcast to a
  column, then along the rows) INTO that array from the left, which on the extended reals is every row times its
  weight; the rest is the shared aggregation, left closed.
-/
import proofs.«116810_j52871047413953_2_alg».proof.Proof.Gen.ReferenceIdeal.Run
import proofs.«116810_j52871047413953_2_alg».proof.Proof.LibSelfLoop
import proofs.«116810_j52871047413953_2_alg».proof.Proof.Aggregation

noncomputable section

open Idealize.ShloMosaic Idealize.ShloMosaic.TcCoe Idealize.SL.Sem

namespace Cert.ReferenceIdeal.RefValue

open Cert.ReferenceIdeal Cert.ReferenceIdeal.Gen Cert.Aggregation Cert.SelfLoopLib

/-- The reference run's result term is the aggregation of `X · Wᵀ + b` with its rows scaled by the self-loop weights. -/
theorem result_eq (x : FVec Ideal S50000x1024 .f32) (W : FVec Ideal S256x1024 .f32) (b : FVec Ideal S256 .f32)
    (src tar : (⟨S800000, .i32⟩ : BufTy).Contents (Elt Ideal)) (ew : FVec Ideal S800000 .f32) (s : FVec Ideal S50000 .f32) :
    addf (Host.scatterAdd scatter_S50000x256_S800000x1_S800000x256_1_0_0_1 (broadcastInDim S50000x256 ![] bcast_S_S50000x256 (constant (F := Ideal) S_ .f32 0x00000000#32)) (broadcastInDim S800000x1 ![0] bcast_S800000_S800000x1_0 tar) (mulf (Host.gather gather_S50000x256_S800000x1_S800000x256_1_0_n_n_0_1_1256 (addf (Host.dotGeneral dot_S50000x1024_S256x1024_S50000x256_1_1_0_0_n_n none x W) (broadcastInDim S50000x256 ![0, 1] bcast_S1x256_S50000x256_0_1 (broadcastInDim S1x256 ![1] bcast_S256_S1x256_1 b))) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x256 ![0, 1] bcast_S800000x1_S800000x256_0_1 (broadcastInDim S800000x1 ![0] bcast_S800000_S800000x1_0 ew)))) (mulf (broadcastInDim S50000x256 ![0, 1] bcast_S50000x1_S50000x256_0_1 (broadcastInDim S50000x1 ![0] bcast_S50000_S50000x1_0 s)) (addf (Host.dotGeneral dot_S50000x1024_S256x1024_S50000x256_1_1_0_0_n_n none x W) (broadcastInDim S50000x256 ![0, 1] bcast_S1x256_S50000x256_0_1 (broadcastInDim S1x256 ![1] bcast_S256_S1x256_1 b))))
      = aggregate gather_S50000x256_S800000x1_S800000x256_1_0_n_n_0_1_1256 scatter_S50000x256_S800000x1_S800000x256_1_0_0_1
          bcast_S_S800000 bcast_S800000_S800000x1_0 bcast_S800000x1_S800000x256_0_1 bcast_S_S50000x256
          (proj x W b) (rowScaled (proj x W b) s) src tar ew := by
  rw [host_proj dot_S50000x1024_S256x1024_S50000x256_1_1_0_0_n_n rfl x W b bcast_S256_S1x256_1 bcast_S1x256_S50000x256_0_1,
    host_rowScaled (proj x W b) s bcast_S50000_S50000x1_0 bcast_S50000x1_S50000x256_0_1]
  rfl

end Cert.ReferenceIdeal.RefValue

end
-- ==== Proof.lean ====
/- A graph convolution: every node's features are projected, `h = X · Wᵀ + b`; every edge carries the projected row
   of its source node, weighted, to its target node, where the rows are summed; and every node adds its own projected
   row times its self-loop weight. The kernel computes the projection and the self-loop term `h · s` block by block in
   one region and leaves gathering, weighting, scatter-adding and the final sum to the host; the reference does all of
   it on the host and forms the self-loop term as `s · h`. On the extended reals the two agree: a row of `X · Wᵀ + b`
   depends on the same row of `X` only, so the region's blocks are the blocks of the reference's whole product;
   multiplication commutes, so `h · s = s · h`; and the edge aggregation is the same function of `h` and the self-loop
   term on both sides, so it is never opened. No finiteness is needed: nothing is distributed or cancelled. -/
import proofs.«116810_j52871047413953_2_alg».proof.Defs
import proofs.«116810_j52871047413953_2_alg».proof.Proof.Gen.Kernel
import proofs.«116810_j52871047413953_2_alg».proof.Proof.Gen.Kernel.Skeleton
import proofs.«116810_j52871047413953_2_alg».proof.Proof.Gen.Kernel.Launch
import proofs.«116810_j52871047413953_2_alg».proof.Proof.Gen.Kernel.Points
import proofs.«116810_j52871047413953_2_alg».proof.Proof.Gen.Kernel.Frame
import proofs.«116810_j52871047413953_2_alg».proof.Proof.Gen.KernelIdeal
import proofs.«116810_j52871047413953_2_alg».proof.Proof.Gen.KernelIdeal.Skeleton
import proofs.«116810_j52871047413953_2_alg».proof.Proof.Gen.KernelIdeal.Launch
import proofs.«116810_j52871047413953_2_alg».proof.Proof.Gen.KernelIdeal.Points
import proofs.«116810_j52871047413953_2_alg».proof.Proof.Gen.KernelIdeal.Frame
import proofs.«116810_j52871047413953_2_alg».proof.Proof.Gen.ReferenceIdeal
import proofs.«116810_j52871047413953_2_alg».proof.Proof.Gen.ReferenceIdeal.Run
import proofs.«116810_j52871047413953_2_alg».proof.Proof.Gen.Pre_finite_inputs
import proofs.«116810_j52871047413953_2_alg».proof.Proof.KernelRun
import proofs.«116810_j52871047413953_2_alg».proof.Proof.ReferenceValue
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end at the aggregation of `X · Wᵀ + b` with
    its rows scaled by the self-loop weights: the kernel by its region's two arrays and the host lines after it, the
    reference by its run's term. -/
theorem algebraic : Cert.algebraic_KernelIdeal_ReferenceIdeal := by
  intro m ρ m' ρ' _ hagree
  refine ⟨fun c => Cert.KernelIdeal.Region.result m c, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact Cert.ReferenceIdeal.RefValue.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
